-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048 : Shape := ⟨2, ![1, 2048]⟩
abbrev S256x4096 : Shape := ⟨2, ![256, 4096]⟩
abbrev S1x256 : Shape := ⟨2, ![1, 256]⟩
abbrev S256x256 : Shape := ⟨2, ![256, 256]⟩

abbrev nBuf : Space → Nat
  | .hbm => 19
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S4096x2048, .f32⟩
  | .hbm, ⟨18, _⟩ => ⟨S4096x2048, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  concatenates_S4096x2048_S4096x2048_S4096x4096_d1 : Shape.Concatenates [S4096x2048, S4096x2048] S4096x4096 1
  bitsLt_bf16_f32 : FTy.bits .bf16 < FTy.bits .f32
  shapeCasts_S2048_S1x2048 : S2048.ShapeCasts S1x2048
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .f32 = 32 ∨ (Rect.block (s := S2048x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .f32 = 32 ∨ (Rect.block (s := S2048x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .f32 = 32 ∨ (Rect.block (s := S2048x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S2048x4096.size a
  hwx0_4 : ∀ i : grid0.Coords, EltTy.bits .f32 = 32 ∨ (Rect.block (s := S2048x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S4096x2048.size a
  hwx0_9 : ∀ i : grid0.Coords, EltTy.bits .f32 = 32 ∨ (Rect.block (s := S4096x2048) S256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S4096x2048.size a
  hwx0_10 : ∀ i : grid0.Coords, EltTy.bits .f32 = 32 ∨ (Rect.block (s := S4096x2048) S256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S4096x2048.size a
  hwx0_11 : ∀ i : grid0.Coords, EltTy.bits .f32 = 32 ∨ (Rect.block (s := S4096x2048) S256x256.size (cc0_transform_11 i) (hinb0_11 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S256x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Spec.lean ====
/-
  The LSTM cell as one function of its arrays, index by index, on the extended reals.

  With `u = [x, h]` the joined input (batch rows, 4096 features) and a gate's weights stored [out, in], the gate's
  pre-activation at batch row `r` and hidden unit `c` is `∑ k, u[r, k] · W[c, k] + b[c]`.  The new cell state is
  `cell · σ(f) + σ(i) · tanh(g)` and the new hidden state `σ(o) · tanh(new cell)`, with `σ x = 1 / (1 + e⁻ˣ)`.
  Both programs are shown to compute exactly these two functions; no algebraic law is needed between them (the
  sums run over the same 4096 products in the same order), so no finiteness of the inputs is used.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

/-- The joined input `[x, h]`: 4096 batch rows of 4096 features. -/
abbrev Joined := (⟨2, ![4096, 4096]⟩ : Shape).Idx → EReal
/-- One gate's weights, [out, in] = [2048, 4096]. -/
abbrev Weights := (⟨2, ![2048, 4096]⟩ : Shape).Idx → EReal
/-- One gate's bias, one entry per hidden unit. -/
abbrev Bias := (⟨1, ![2048]⟩ : Shape).Idx → EReal
/-- A state array: 4096 batch rows of 2048 hidden units. -/
abbrev State := (⟨2, ![4096, 2048]⟩ : Shape).Idx → EReal

/-- Two [4096, 2048] arrays may be laid side by side along the feature axis. -/
theorem joined_wf : Shape.Concatenates [(⟨2, ![4096, 2048]⟩ : Shape), ⟨2, ![4096, 2048]⟩] ⟨2, ![4096, 4096]⟩ 1 := by decide

/-- The joined input `[x, h]`: the input and the old hidden state side by side along the feature axis. -/
def joined (x h : State) : Joined :=
  concatenate ⟨2, ![4096, 4096]⟩ 1 [⟨⟨2, ![4096, 2048]⟩, x⟩, ⟨⟨2, ![4096, 2048]⟩, h⟩] joined_wf

/-- A gate's pre-activation at batch row `r`, hidden unit `c`: row `r` of the joined input against row `c` of the
    gate's weights, plus the unit's bias. -/
def preact (u : Joined) (W : Weights) (b : Bias) (r : Fin 4096) (c : Fin 2048) : EReal :=
  (∑ k : Fin 4096, u (ix2 r k) * W (ix2 c k)) + b (ix1 c)

/-- The new cell state at (r, c): `cell · σ(forget) + σ(input) · tanh(candidate)`. -/
def cellAt (u : Joined) (Wi Wf Wc : Weights) (bi bf bc : Bias) (cell : State) (r : Fin 4096) (c : Fin 2048) : EReal :=
  cell (ix2 r c) * Ideal.logistic (preact u Wf bf r c) + Ideal.logistic (preact u Wi bi r c) * Ideal.tanh (preact u Wc bc r c)

/-- The new hidden state at (r, c): `σ(output) · tanh(new cell)`. -/
def hiddenAt (u : Joined) (Wi Wf Wc Wo : Weights) (bi bf bc bo : Bias) (cell : State) (r : Fin 4096) (c : Fin 2048) : EReal :=
  Ideal.logistic (preact u Wo bo r c) * Ideal.tanh (cellAt u Wi Wf Wc bi bf bc cell r c)

/-- The new cell state as an array. -/
def cellNext (u : Joined) (Wi Wf Wc : Weights) (bi bf bc : Bias) (cell : State) : State :=
  fun i => cellAt u Wi Wf Wc bi bf bc cell (i 0) (i 1)

/-- The new hidden state as an array. -/
def hiddenNext (u : Joined) (Wi Wf Wc Wo : Weights) (bi bf bc bo : Bias) (cell : State) : State :=
  fun i => hiddenAt u Wi Wf Wc Wo bi bf bc bo cell (i 0) (i 1)

/-- The f32 word of 1.0 denotes the real number 1. -/
theorem ofBits_one : Ideal.ofBits .f32 0x3F800000#32 = 1 := by
  simp [Ideal.ofBits, Ideal.ieee, -EReal.coe_mul]; norm_num

/-- The sigmoid spelt with the literal 1.0, as a host program spells it: `1.0 / (1.0 + exp (-x))`. -/
theorem logistic_spelt (x : EReal) :
    Ideal.div (Ideal.ofBits .f32 0x3F800000#32) (Ideal.ofBits .f32 0x3F800000#32 + Ideal.exp (-x)) = Ideal.logistic x := by
  rw [ofBits_one]; rfl

end Cert.LstmSpec

end
-- ==== Proof.KernelTile.lean ====
/-
  One grid point of the kernel, read at an index of its 256 × 256 tile.

  The body loads a 256-row tile `x0` of the joined input, for each gate a 256-row tile of the gate's weights
  and the matching 256 bias entries (as one row), and the tile of the old cell state.  Each gate's
  pre-activation at tile position (p, q) is `∑ k, x0[p, k] · w[q, k] + b[0, q]`: the matrix unit contracts the two
  feature axes into a zero accumulator, the bias row is repeated down the rows, and the change of float format on
  the way into the matrix unit is the identity on the extended reals.  The two stored values are then the cell
  update and the hidden update of these four pre-activations, position by position.
-/
import proofs.«155185_j56100862820648_2_alg».proof.Proof.Gen.KernelIdeal.Skeleton
import proofs.«155185_j56100862820648_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- A gate's pre-activation at position (p, q) of a tile, from the tile's loads. -/
def tilePre (x0 : FVec Ideal S256x4096 .bf16) (xw : FVec Ideal S256x4096 .f32) (xb : FVec Ideal S1x256 .f32)
    (p q : Fin 256) : EReal :=
  (∑ k : Fin 4096, x0 (ix2 p k) * xw (ix2 q k)) + xb (ix2 (0 : Fin 1) q)

/-- Row coordinate of the left operand's index: the output's row. -/
theorem lhs_row (j : S256x256.Idx) (k : dot_S256x4096_S256x4096_S256x256_1_1_0_0_n_n.contr.Idx) :
    (dot_S256x4096_S256x4096_S256x256_1_1_0_0_n_n.lhsIdx j k 0).val = (j 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl

/-- Row coordinate of the right operand's index: the output's column (the weights are stored [out, in]). -/
theorem rhs_row (j : S256x256.Idx) (k : dot_S256x4096_S256x4096_S256x256_1_1_0_0_n_n.contr.Idx) :
    (dot_S256x4096_S256x4096_S256x256_1_1_0_0_n_n.rhsIdx j k 0).val = (j 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl

/-- The matrix unit's product of two 256 × 4096 tiles along their feature axes, into a zero accumulator, at (p, q):
    the sum over the 4096 features of row p of the left tile against row q of the right one. -/
theorem matmul_tile (x0 w : FVec Ideal S256x4096 .bf16) (p q : Fin 256) :
    matmul dot_S256x4096_S256x4096_S256x256_1_1_0_0_n_n none x0 w (constant (F := Ideal) S256x256 .f32 0x00000000#32) (ix2 p q)
      = ∑ k : Fin 4096, x0 (ix2 p k) * w (ix2 q k) := by
  show FloatOps.matmul dot_S256x4096_S256x4096_S256x256_1_1_0_0_n_n none x0 w (constant (F := Ideal) S256x256 .f32 0x00000000#32) (ix2 p q) = _
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q) ((contrEquiv1 dot_S256x4096_S256x4096_S256x256_1_1_0_0_n_n 4096 rfl rfl).symm k) = ix2 p k := funext fun a => Fin.ext (by
    match a with
    | ⟨0, _⟩ => exact lhs_row _ _
    | ⟨1, _⟩ => exact (dot_S256x4096_S256x4096_S256x256_1_1_0_0_n_n.lhsIdx_val_of_single rfl _ _).trans hk)
  have er : dot_S256x4096_S256x4096_S256x256_1_1_0_0_n_n.rhsIdx (ix2 p q) ((contrEquiv1 dot_S256x4096_S256x4096_S256x256_1_1_0_0_n_n 4096 rfl rfl).symm k) = ix2 q k := funext fun a => Fin.ext (by
    match a with
    | ⟨0, _⟩ => exact rhs_row _ _
    | ⟨1, _⟩ => exact (dot_S256x4096_S256x4096_S256x256_1_1_0_0_n_n.rhsIdx_val_of_single rfl _ _).trans hk)
  rw [el, er]

/-- A gate's pre-activation as the body computes it — the product of the input tile with the weight tile rounded
    to the matrix unit's format, plus the bias row repeated down the rows — at (p, q). -/
theorem preact_tile (x0 : FVec Ideal S256x4096 .bf16) (xw : FVec Ideal S256x4096 .f32) (xb : FVec Ideal S1x256 .f32)
    (h0 : S256x4096.ShapeCasts S256x4096) (hb : FTy.bits .bf16 < FTy.bits .f32) (h1 : S1x256.ShapeCasts S1x256)
    (h2 : S1x256.Broadcasts S256x256) (p q : Fin 256) :
    addf (matmul dot_S256x4096_S256x4096_S256x256_1_1_0_0_n_n none (shapeCast S256x4096 x0 h0) (truncf .bf16 xw hb) (constant (F := Ideal) S256x256 .f32 0x00000000#32))
        (broadcastTo S256x256 (shapeCast S1x256 xb h1) h2) (ix2 p q)
      = tilePre x0 xw xb p q := by
  rw [shapeCast_self, shapeCast_self]
  show matmul dot_S256x4096_S256x4096_S256x256_1_1_0_0_n_n none x0 (truncf .bf16 xw hb) (constant (F := Ideal) S256x256 .f32 0x00000000#32) (ix2 p q)
      + broadcastTo S256x256 xb h2 (ix2 p q) = _
  rw [matmul_tile, broadcastTo_1b_ab_apply]
  rfl

/-- The input, forget and output gates inside a tile: the sigmoid of the gate's pre-activation. -/
theorem pay4_apply (x0 : FVec Ideal S256x4096 .bf16) (xw : FVec Ideal S256x4096 .f32) (xb : FVec Ideal S1x256 .f32) (p q : Fin 256) :
    k0_pay4 (F := Ideal) x0 xw xb (ix2 p q) = Ideal.logistic (tilePre x0 xw xb p q) := by
  unfold k0_pay4 k0_pay3
  exact congrArg Ideal.logistic (preact_tile x0 xw xb _ _ _ _ p q)

theorem pay5_apply (x0 : FVec Ideal S256x4096 .bf16) (xw : FVec Ideal S256x4096 .f32) (xb : FVec Ideal S1x256 .f32) (p q : Fin 256) :
    k0_pay5 (F := Ideal) x0 xw xb (ix2 p q) = Ideal.logistic (tilePre x0 xw xb p q) := by
  unfold k0_pay5 k0_pay3
  exact congrArg Ideal.logistic (preact_tile x0 xw xb _ _ _ _ p q)

theorem pay7_apply (x0 : FVec Ideal S256x4096 .bf16) (xw : FVec Ideal S256x4096 .f32) (xb : FVec Ideal S1x256 .f32) (p q : Fin 256) :
    k0_pay7 (F := Ideal) x0 xw xb (ix2 p q) = Ideal.logistic (tilePre x0 xw xb p q) := by
  unfold k0_pay7 k0_pay3
  exact congrArg Ideal.logistic (preact_tile x0 xw xb _ _ _ _ p q)

/-- The candidate inside a tile: the hyperbolic tangent of its pre-activation. -/
theorem pay6_apply (x0 : FVec Ideal S256x4096 .bf16) (xw : FVec Ideal S256x4096 .f32) (xb : FVec Ideal S1x256 .f32) (p q : Fin 256) :
    k0_pay6 (F := Ideal) x0 xw xb (ix2 p q) = Ideal.tanh (tilePre x0 xw xb p q) := by
  unfold k0_pay6 k0_pay3
  exact congrArg Ideal.tanh (preact_tile x0 xw xb _ _ _ _ p q)

/-- The new cell state inside a tile, from the tile's loads. -/
def tileCell (x0 : FVec Ideal S256x4096 .bf16) (wi wf wc : FVec Ideal S256x4096 .f32) (bi bf bc : FVec Ideal S1x256 .f32)
    (cell : FVec Ideal S256x256 .f32) (p q : Fin 256) : EReal :=
  cell (ix2 p q) * Ideal.logistic (tilePre x0 wf bf p q) + Ideal.logistic (tilePre x0 wi bi p q) * Ideal.tanh (tilePre x0 wc bc p q)

/-- The new hidden state inside a tile, from the tile's loads. -/
def tileHidden (x0 : FVec Ideal S256x4096 .bf16) (wi wf wc wo : FVec Ideal S256x4096 .f32) (bi bf bc bo : FVec Ideal S1x256 .f32)
    (cell : FVec Ideal S256x256 .f32) (p q : Fin 256) : EReal :=
  Ideal.logistic (tilePre x0 wo bo p q) * Ideal.tanh (tileCell x0 wi wf wc bi bf bc cell p q)

/-- The value stored to the cell output: `cell · σ(f) + σ(i) · tanh(g)`, position by position. -/
theorem cell_payload (x0 : FVec Ideal S256x4096 .bf16) (wi wf wc : FVec Ideal S256x4096 .f32) (bi bf bc : FVec Ideal S1x256 .f32)
    (cell : FVec Ideal S256x256 .f32) (p q : Fin 256) :
    k0_pay1 (F := Ideal) (k0_pay4 x0 wi bi) (k0_pay5 x0 wf bf) (k0_pay6 x0 wc bc) cell (ix2 p q) = tileCell x0 wi wf wc bi bf bc cell p q := by
  unfold k0_pay1
  show cell (ix2 p q) * k0_pay5 (F := Ideal) x0 wf bf (ix2 p q) + k0_pay4 (F := Ideal) x0 wi bi (ix2 p q) * k0_pay6 (F := Ideal) x0 wc bc (ix2 p q) = _
  rw [pay4_apply, pay5_apply, pay6_apply]
  rfl

/-- The value stored to the hidden output: `σ(o) · tanh(new cell)`, position by position. -/
theorem hidden_payload (x0 : FVec Ideal S256x4096 .bf16) (wi wf wc wo : FVec Ideal S256x4096 .f32) (bi bf bc bo : FVec Ideal S1x256 .f32)
    (cell : FVec Ideal S256x256 .f32) (p q : Fin 256) :
    k0_pay2 (F := Ideal) (k0_pay4 x0 wi bi) (k0_pay5 x0 wf bf) (k0_pay6 x0 wc bc) (k0_pay7 x0 wo bo) cell (ix2 p q)
      = tileHidden x0 wi wf wc wo bi bf bc bo cell p q := by
  unfold k0_pay2
  show k0_pay7 (F := Ideal) x0 wo bo (ix2 p q) * Ideal.tanh (k0_pay1 (F := Ideal) (k0_pay4 x0 wi bi) (k0_pay5 x0 wf bf) (k0_pay6 x0 wc bc) cell (ix2 p q)) = _
  rw [pay7_apply, cell_payload]
  rfl

end Cert.KernelIdeal.Tile

end
-- ==== Proof.KernelGrid.lean ====
/-
  Where each window's block sits at a grid point, relative to the block of the cell output.

  The grid is 8 column tiles (outer) by 16 row tiles (inner); every fact below is decided over its 128 points.
-/
import proofs.«155185_j56100862820648_2_alg».proof.Proof.Gen.KernelIdeal

noncomputable section

namespace Cert.KernelIdeal.Blocks

open Cert.KernelIdeal Idealize.ShloMosaic

theorem hz : (![0, 0] : Fin 2 → Nat) = fun _ => 0 := funext fun a => by fin_cases a <;> rfl

/-! ## Where each window's block sits, relative to the output block (decided over the 128 points) -/

/-- The joined input's block: the output's block row, all 4096 features. -/
theorem idx_u : ∀ t : Fin cfg0.N, win0_0.index t (0 : Fin 2) = win0_11.index t (0 : Fin 2) ∧ win0_0.index t (1 : Fin 2) = 0 :=
  (by decide +kernel : ∀ t : Fin grid0.N, _)

/-- The four weight blocks: rows at the output's block column, all 4096 features. -/
theorem idx_w : ∀ t : Fin cfg0.N,
    win0_1.index t (0 : Fin 2) = win0_11.index t (1 : Fin 2) ∧ win0_1.index t (1 : Fin 2) = 0
    ∧ win0_2.index t (0 : Fin 2) = win0_11.index t (1 : Fin 2) ∧ win0_2.index t (1 : Fin 2) = 0
    ∧ win0_3.index t (0 : Fin 2) = win0_11.index t (1 : Fin 2) ∧ win0_3.index t (1 : Fin 2) = 0
    ∧ win0_4.index t (0 : Fin 2) = win0_11.index t (1 : Fin 2) ∧ win0_4.index t (1 : Fin 2) = 0 :=
  (by decide +kernel : ∀ t : Fin grid0.N, _)

/-- The four bias blocks: the one row, at the output's block column. -/
theorem idx_b : ∀ t : Fin cfg0.N,
    win0_5.index t (0 : Fin 2) = 0 ∧ win0_5.index t (1 : Fin 2) = win0_11.index t (1 : Fin 2)
    ∧ win0_6.index t (0 : Fin 2) = 0 ∧ win0_6.index t (1 : Fin 2) = win0_11.index t (1 : Fin 2)
    ∧ win0_7.index t (0 : Fin 2) = 0 ∧ win0_7.index t (1 : Fin 2) = win0_11.index t (1 : Fin 2)
    ∧ win0_8.index t (0 : Fin 2) = 0 ∧ win0_8.index t (1 : Fin 2) = win0_11.index t (1 : Fin 2) :=
  (by decide +kernel : ∀ t : Fin grid0.N, _)

/-- The old cell state's block and the hidden output's block sit where the cell output's block does; the block
    indices stay inside the 16 × 8 grid of blocks. -/
theorem idx_c : ∀ t : Fin cfg0.N,
    win0_9.index t (0 : Fin 2) = win0_11.index t (0 : Fin 2) ∧ win0_9.index t (1 : Fin 2) = win0_11.index t (1 : Fin 2)
    ∧ win0_10.index t (0 : Fin 2) = win0_11.index t (0 : Fin 2) ∧ win0_10.index t (1 : Fin 2) = win0_11.index t (1 : Fin 2)
    ∧ win0_11.index t (0 : Fin 2) ≤ 15 ∧ win0_11.index t (1 : Fin 2) ≤ 7 :=
  (by decide +kernel : ∀ t : Fin grid0.N, _)

/-- Every block of the 16 × 8 grid of blocks is some point's. -/
theorem idx_onto : ∀ (R : Fin 16) (C : Fin 8), ∃ t : Fin cfg0.N, win0_11.index t = ![R.val, C.val] :=
  (by decide +kernel : ∀ (R : Fin 16) (C : Fin 8), ∃ t : Fin grid0.N, win0_11.index t = ![R.val, C.val])

end Cert.KernelIdeal.Blocks

end
-- ==== Proof.KernelBlocks.lean ====
/-
  From the kernel's 128 grid points to its two result arrays.

  The grid is 8 column tiles (outer) by 16 row tiles (inner) of 256 × 256 entries.  At a point whose output
  block sits at block row R and block column C, the body sees rows 256 R … 256 R + 255 of the joined input, rows
  256 C … 256 C + 255 of each gate's weights, entries 256 C … 256 C + 255 of each bias (as one row), and block
  (R, C) of the old cell state.  So what the point writes back is block (R, C) of the whole-array cell and hidden
  updates of Spec.lean; the 128 blocks tile both result arrays, hence each array ends holding that function.
  Before the region the host joins the two inputs along the feature axis and views each bias as a one-row matrix.
-/
import proofs.«155185_j56100862820648_2_alg».proof.Proof.Gen.KernelIdeal.Value
import proofs.«155185_j56100862820648_2_alg».proof.Proof.KernelTile
import proofs.«155185_j56100862820648_2_alg».proof.Proof.KernelGrid
import Idealize.ShloMosaic.Lib.Pipeline.Value
import Idealize.ShloMosaic.Lib.StableHlo.Run
import Idealize.ShloMosaic.Lib.ValueLayout

noncomputable section

namespace Cert.KernelIdeal.Blocks

open Cert.KernelIdeal Cert.KernelIdeal.Gen Cert.KernelIdeal.Value Cert.KernelIdeal.Tile Cert.LstmSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the region finds in the buffers the host wrote -/

/-- A one-row matrix read as a vector. -/
def rowOf (b : (⟨2, ![1, 2048]⟩ : Shape).Idx → EReal) : Bias := fun j => b (ix2 (0 : Fin 1) (j 0))

/-- The joined input: the two inputs side by side along the feature axis (the rounding to the matrix unit's format
    is the identity on the extended reals). -/
theorem V_joined (c : Dev nD) : (V m c main_v1 : S4096x4096.Idx → EReal)
    = concatenate S4096x4096 1 [⟨S4096x2048, m ((c : Thread nD τ).loc main_arg0)⟩, ⟨S4096x2048, m ((c : Thread nD τ).loc main_arg1)⟩] Facts₀.concatenates_S4096x2048_S4096x2048_S4096x4096_d1 := by
  dsimp only [V, hostOps0]; after_results; rfl

/-- Each bias, viewed as a one-row matrix and read back as a vector, is the bias. -/
theorem rowOf_V2 (c : Dev nD) : rowOf (V m c main_v2) = m ((c : Thread nD τ).loc main_arg4) := by
  have e : (V m c main_v2 : S1x2048.Idx → EReal) = shapeCast S1x2048 (m ((c : Thread nD τ).loc main_arg4)) Facts₀.shapeCasts_S2048_S1x2048 := by
    dsimp only [V, hostOps0]; after_results; rfl
  funext j; rw [eq_ix1 j]
  show (V m c main_v2 : S1x2048.Idx → EReal) (ix2 (0 : Fin 1) (j 0)) = _
  rw [e]; exact shapeCast_a_1a_apply _ _ 0 (j 0)

theorem rowOf_V3 (c : Dev nD) : rowOf (V m c main_v3) = m ((c : Thread nD τ).loc main_arg6) := by
  have e : (V m c main_v3 : S1x2048.Idx → EReal) = shapeCast S1x2048 (m ((c : Thread nD τ).loc main_arg6)) Facts₀.shapeCasts_S2048_S1x2048 := by
    dsimp only [V, hostOps0]; after_results; rfl
  funext j; rw [eq_ix1 j]
  show (V m c main_v3 : S1x2048.Idx → EReal) (ix2 (0 : Fin 1) (j 0)) = _
  rw [e]; exact shapeCast_a_1a_apply _ _ 0 (j 0)

theorem rowOf_V4 (c : Dev nD) : rowOf (V m c main_v4) = m ((c : Thread nD τ).loc main_arg8) := by
  have e : (V m c main_v4 : S1x2048.Idx → EReal) = shapeCast S1x2048 (m ((c : Thread nD τ).loc main_arg8)) Facts₀.shapeCasts_S2048_S1x2048 := by
    dsimp only [V, hostOps0]; after_results; rfl
  funext j; rw [eq_ix1 j]
  show (V m c main_v4 : S1x2048.Idx → EReal) (ix2 (0 : Fin 1) (j 0)) = _
  rw [e]; exact shapeCast_a_1a_apply _ _ 0 (j 0)

theorem rowOf_V5 (c : Dev nD) : rowOf (V m c main_v5) = m ((c : Thread nD τ).loc main_arg10) := by
  have e : (V m c main_v5 : S1x2048.Idx → EReal) = shapeCast S1x2048 (m ((c : Thread nD τ).loc main_arg10)) Facts₀.shapeCasts_S2048_S1x2048 := by
    dsimp only [V, hostOps0]; after_results; rfl
  funext j; rw [eq_ix1 j]
  show (V m c main_v5 : S1x2048.Idx → EReal) (ix2 (0 : Fin 1) (j 0)) = _
  rw [e]; exact shapeCast_a_1a_apply _ _ 0 (j 0)

/-! ## Each window's block, read off its array -/

/-- The joined input's block at a point: 256 rows starting at the output's block row. -/
theorem read_u (c : Dev nD) (t : Fin cfg0.N) (p : Fin 256) (k : Fin 4096) (r : Fin 4096)
    (hr : r.val = win0_11.index t (0 : Fin 2) * 256 + p.val) :
    (iblk m c 0 t : Vec Ideal S256x4096 .bf16) (ix2 p k) = (V m c main_v1 : S4096x4096.Idx → EReal) (ix2 r k) := by
  obtain ⟨e0, e1⟩ := idx_u t
  unfold iblk
  rw [View.read_apply]
  show (V m c main_v1 : S4096x4096.Idx → EReal) _ = _
  refine congrArg (V m c main_v1 : S4096x4096.Idx → EReal) (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- A gate's weight block at a point: 256 rows (hidden units) starting at the output's block column. -/
theorem read_wi (c : Dev nD) (t : Fin cfg0.N) (q : Fin 256) (k : Fin 4096) (cc : Fin 2048)
    (hc : cc.val = win0_11.index t (1 : Fin 2) * 256 + q.val) :
    (iblk m c 1 t : Vec Ideal S256x4096 .f32) (ix2 q k) = (V m c main_arg3 : S2048x4096.Idx → EReal) (ix2 cc k) := by
  obtain ⟨e0, e1, -⟩ := idx_w t
  unfold iblk
  rw [View.read_apply]
  show (V m c main_arg3 : S2048x4096.Idx → EReal) _ = _
  refine congrArg (V m c main_arg3 : S2048x4096.Idx → EReal) (funext fun a => Fin.ext ?_)
  match a with
  | ⟨0, _⟩ => show win0_1.index t (0 : Fin 2) * 256 + 1 * q.val = cc.val; omega
  | ⟨1, _⟩ => show win0_1.index t (1 : Fin 2) * 4096 + 1 * k.val = k.val; omega

theorem read_wf (c : Dev nD) (t : Fin cfg0.N) (q : Fin 256) (k : Fin 4096) (cc : Fin 2048)
    (hc : cc.val = win0_11.index t (1 : Fin 2) * 256 + q.val) :
    (iblk m c 2 t : Vec Ideal S256x4096 .f32) (ix2 q k) = (V m c main_arg5 : S2048x4096.Idx → EReal) (ix2 cc k) := by
  obtain ⟨-, -, e0, e1, -⟩ := idx_w t
  unfold iblk
  rw [View.read_apply]
  show (V m c main_arg5 : S2048x4096.Idx → EReal) _ = _
  refine congrArg (V m c main_arg5 : S2048x4096.Idx → EReal) (funext fun a => Fin.ext ?_)
  match a with
  | ⟨0, _⟩ => show win0_2.index t (0 : Fin 2) * 256 + 1 * q.val = cc.val; omega
  | ⟨1, _⟩ => show win0_2.index t (1 : Fin 2) * 4096 + 1 * k.val = k.val; omega

theorem read_wc (c : Dev nD) (t : Fin cfg0.N) (q : Fin 256) (k : Fin 4096) (cc : Fin 2048)
    (hc : cc.val = win0_11.index t (1 : Fin 2) * 256 + q.val) :
    (iblk m c 3 t : Vec Ideal S256x4096 .f32) (ix2 q k) = (V m c main_arg7 : S2048x4096.Idx → EReal) (ix2 cc k) := by
  obtain ⟨-, -, -, -, e0, e1, -⟩ := idx_w t
  unfold iblk
  rw [View.read_apply]
  show (V m c main_arg7 : S2048x4096.Idx → EReal) _ = _
  refine congrArg (V m c main_arg7 : S2048x4096.Idx → EReal) (funext fun a => Fin.ext ?_)
  match a with
  | ⟨0, _⟩ => show win0_3.index t (0 : Fin 2) * 256 + 1 * q.val = cc.val; omega
  | ⟨1, _⟩ => show win0_3.index t (1 : Fin 2) * 4096 + 1 * k.val = k.val; omega

theorem read_wo (c : Dev nD) (t : Fin cfg0.N) (q : Fin 256) (k : Fin 4096) (cc : Fin 2048)
    (hc : cc.val = win0_11.index t (1 : Fin 2) * 256 + q.val) :
    (iblk m c 4 t : Vec Ideal S256x4096 .f32) (ix2 q k) = (V m c main_arg9 : S2048x4096.Idx → EReal) (ix2 cc k) := by
  obtain ⟨-, -, -, -, -, -, e0, e1⟩ := idx_w t
  unfold iblk
  rw [View.read_apply]
  show (V m c main_arg9 : S2048x4096.Idx → EReal) _ = _
  refine congrArg (V m c main_arg9 : S2048x4096.Idx → EReal) (funext fun a => Fin.ext ?_)
  match a with
  | ⟨0, _⟩ => show win0_4.index t (0 : Fin 2) * 256 + 1 * q.val = cc.val; omega
  | ⟨1, _⟩ => show win0_4.index t (1 : Fin 2) * 4096 + 1 * k.val = k.val; omega

/-- A gate's bias block at a point: 256 entries of the one row, starting at the output's block column. -/
theorem read_bi (c : Dev nD) (t : Fin cfg0.N) (q : Fin 256) (cc : Fin 2048)
    (hc : cc.val = win0_11.index t (1 : Fin 2) * 256 + q.val) :
    (iblk m c 5 t : Vec Ideal S1x256 .f32) (ix2 (0 : Fin 1) q) = rowOf (V m c main_v2) (ix1 cc) := by
  obtain ⟨e0, e1, -⟩ := idx_b t
  unfold iblk
  rw [View.read_apply]
  show (V m c main_v2 : S1x2048.Idx → EReal) _ = (V m c main_v2 : S1x2048.Idx → EReal) (ix2 (0 : Fin 1) cc)
  refine congrArg (V m c main_v2 : S1x2048.Idx → EReal) (funext fun a => Fin.ext ?_)
  match a with
  | ⟨0, _⟩ => show win0_5.index t (0 : Fin 2) * 1 + 1 * 0 = 0; omega
  | ⟨1, _⟩ => show win0_5.index t (1 : Fin 2) * 256 + 1 * q.val = cc.val; omega

theorem read_bf (c : Dev nD) (t : Fin cfg0.N) (q : Fin 256) (cc : Fin 2048)
    (hc : cc.val = win0_11.index t (1 : Fin 2) * 256 + q.val) :
    (iblk m c 6 t : Vec Ideal S1x256 .f32) (ix2 (0 : Fin 1) q) = rowOf (V m c main_v3) (ix1 cc) := by
  obtain ⟨-, -, e0, e1, -⟩ := idx_b t
  unfold iblk
  rw [View.read_apply]
  show (V m c main_v3 : S1x2048.Idx → EReal) _ = (V m c main_v3 : S1x2048.Idx → EReal) (ix2 (0 : Fin 1) cc)
  refine congrArg (V m c main_v3 : S1x2048.Idx → EReal) (funext fun a => Fin.ext ?_)
  match a with
  | ⟨0, _⟩ => show win0_6.index t (0 : Fin 2) * 1 + 1 * 0 = 0; omega
  | ⟨1, _⟩ => show win0_6.index t (1 : Fin 2) * 256 + 1 * q.val = cc.val; omega

theorem read_bc (c : Dev nD) (t : Fin cfg0.N) (q : Fin 256) (cc : Fin 2048)
    (hc : cc.val = win0_11.index t (1 : Fin 2) * 256 + q.val) :
    (iblk m c 7 t : Vec Ideal S1x256 .f32) (ix2 (0 : Fin 1) q) = rowOf (V m c main_v4) (ix1 cc) := by
  obtain ⟨-, -, -, -, e0, e1, -⟩ := idx_b t
  unfold iblk
  rw [View.read_apply]
  show (V m c main_v4 : S1x2048.Idx → EReal) _ = (V m c main_v4 : S1x2048.Idx → EReal) (ix2 (0 : Fin 1) cc)
  refine congrArg (V m c main_v4 : S1x2048.Idx → EReal) (funext fun a => Fin.ext ?_)
  match a with
  | ⟨0, _⟩ => show win0_7.index t (0 : Fin 2) * 1 + 1 * 0 = 0; omega
  | ⟨1, _⟩ => show win0_7.index t (1 : Fin 2) * 256 + 1 * q.val = cc.val; omega

theorem read_bo (c : Dev nD) (t : Fin cfg0.N) (q : Fin 256) (cc : Fin 2048)
    (hc : cc.val = win0_11.index t (1 : Fin 2) * 256 + q.val) :
    (iblk m c 8 t : Vec Ideal S1x256 .f32) (ix2 (0 : Fin 1) q) = rowOf (V m c main_v5) (ix1 cc) := by
  obtain ⟨-, -, -, -, -, -, e0, e1⟩ := idx_b t
  unfold iblk
  rw [View.read_apply]
  show (V m c main_v5 : S1x2048.Idx → EReal) _ = (V m c main_v5 : S1x2048.Idx → EReal) (ix2 (0 : Fin 1) cc)
  refine congrArg (V m c main_v5 : S1x2048.Idx → EReal) (funext fun a => Fin.ext ?_)
  match a with
  | ⟨0, _⟩ => show win0_8.index t (0 : Fin 2) * 1 + 1 * 0 = 0; omega
  | ⟨1, _⟩ => show win0_8.index t (1 : Fin 2) * 256 + 1 * q.val = cc.val; omega

/-- The old cell state's block at a point: the block the outputs' blocks sit at. -/
theorem read_cell (c : Dev nD) (t : Fin cfg0.N) (p q : Fin 256) (r : Fin 4096) (cc : Fin 2048)
    (hr : r.val = win0_11.index t (0 : Fin 2) * 256 + p.val) (hc : cc.val = win0_11.index t (1 : Fin 2) * 256 + q.val) :
    (iblk m c 9 t : Vec Ideal S256x256 .f32) (ix2 p q) = (V m c main_arg2 : S4096x2048.Idx → EReal) (ix2 r cc) := by
  obtain ⟨e0, e1, -⟩ := idx_c t
  unfold iblk
  rw [View.read_apply]
  show (V m c main_arg2 : S4096x2048.Idx → EReal) _ = _
  refine congrArg (V m c main_arg2 : S4096x2048.Idx → EReal) (funext fun a => Fin.ext ?_)
  match a with
  | ⟨0, _⟩ => show win0_9.index t (0 : Fin 2) * 256 + 1 * p.val = r.val; omega
  | ⟨1, _⟩ => show win0_9.index t (1 : Fin 2) * 256 + 1 * q.val = cc.val; omega

/-! ## A tile whose loads are blocks of whole arrays computes the block of the whole-array update -/

theorem tilePre_eq (U : Joined) (W : Weights) (b : Bias) (x0 : FVec Ideal S256x4096 .bf16) (xw : FVec Ideal S256x4096 .f32)
    (xb : FVec Ideal S1x256 .f32) (p q : Fin 256) (r : Fin 4096) (cc : Fin 2048)
    (hx : ∀ k, x0 (ix2 p k) = U (ix2 r k)) (hw : ∀ k, xw (ix2 q k) = W (ix2 cc k))
    (hb : xb (ix2 (0 : Fin 1) q) = b (ix1 cc)) :
    tilePre x0 xw xb p q = preact U W b r cc := by
  unfold tilePre preact
  rw [hb]
  exact congrArg (· + b (ix1 cc)) (Finset.sum_congr rfl fun k _ => by rw [hx k, hw k])

theorem tileCell_eq (U : Joined) (Wi Wf Wc : Weights) (bi bf bc : Bias) (cell : State)
    (x0 : FVec Ideal S256x4096 .bf16) (wi wf wc : FVec Ideal S256x4096 .f32) (xbi xbf xbc : FVec Ideal S1x256 .f32)
    (cl : FVec Ideal S256x256 .f32) (p q : Fin 256) (r : Fin 4096) (cc : Fin 2048)
    (hx : ∀ k, x0 (ix2 p k) = U (ix2 r k))
    (hwi : ∀ k, wi (ix2 q k) = Wi (ix2 cc k)) (hwf : ∀ k, wf (ix2 q k) = Wf (ix2 cc k)) (hwc : ∀ k, wc (ix2 q k) = Wc (ix2 cc k))
    (hbi : xbi (ix2 (0 : Fin 1) q) = bi (ix1 cc)) (hbf : xbf (ix2 (0 : Fin 1) q) = bf (ix1 cc)) (hbc : xbc (ix2 (0 : Fin 1) q) = bc (ix1 cc))
    (hcl : cl (ix2 p q) = cell (ix2 r cc)) :
    tileCell x0 wi wf wc xbi xbf xbc cl p q = cellAt U Wi Wf Wc bi bf bc cell r cc := by
  unfold tileCell cellAt
  rw [hcl, tilePre_eq U Wf bf x0 wf xbf p q r cc hx hwf hbf, tilePre_eq U Wi bi x0 wi xbi p q r cc hx hwi hbi,
    tilePre_eq U Wc bc x0 wc xbc p q r cc hx hwc hbc]

theorem tileHidden_eq (U : Joined) (Wi Wf Wc Wo : Weights) (bi bf bc bo : Bias) (cell : State)
    (x0 : FVec Ideal S256x4096 .bf16) (wi wf wc wo : FVec Ideal S256x4096 .f32) (xbi xbf xbc xbo : FVec Ideal S1x256 .f32)
    (cl : FVec Ideal S256x256 .f32) (p q : Fin 256) (r : Fin 4096) (cc : Fin 2048)
    (hx : ∀ k, x0 (ix2 p k) = U (ix2 r k))
    (hwi : ∀ k, wi (ix2 q k) = Wi (ix2 cc k)) (hwf : ∀ k, wf (ix2 q k) = Wf (ix2 cc k)) (hwc : ∀ k, wc (ix2 q k) = Wc (ix2 cc k))
    (hwo : ∀ k, wo (ix2 q k) = Wo (ix2 cc k))
    (hbi : xbi (ix2 (0 : Fin 1) q) = bi (ix1 cc)) (hbf : xbf (ix2 (0 : Fin 1) q) = bf (ix1 cc)) (hbc : xbc (ix2 (0 : Fin 1) q) = bc (ix1 cc))
    (hbo : xbo (ix2 (0 : Fin 1) q) = bo (ix1 cc))
    (hcl : cl (ix2 p q) = cell (ix2 r cc)) :
    tileHidden x0 wi wf wc wo xbi xbf xbc xbo cl p q = hiddenAt U Wi Wf Wc Wo bi bf bc bo cell r cc := by
  unfold tileHidden hiddenAt
  rw [tilePre_eq U Wo bo x0 wo xbo p q r cc hx hwo hbo,
    tileCell_eq U Wi Wf Wc bi bf bc cell x0 wi wf wc xbi xbf xbc cl p q r cc hx hwi hwf hwc hbi hbf hbc hcl]

/-! ## What a point writes back -/

/-- The new cell state over the arrays as the region finds them. -/
def cellG (c : Dev nD) : State :=
  cellNext (V m c main_v1) (V m c main_arg3) (V m c main_arg5) (V m c main_arg7)
    (rowOf (V m c main_v2)) (rowOf (V m c main_v3)) (rowOf (V m c main_v4)) (V m c main_arg2)

/-- The new hidden state over the arrays as the region finds them. -/
def hiddenG (c : Dev nD) : State :=
  hiddenNext (V m c main_v1) (V m c main_arg3) (V m c main_arg5) (V m c main_arg7) (V m c main_arg9)
    (rowOf (V m c main_v2)) (rowOf (V m c main_v3)) (rowOf (V m c main_v4)) (rowOf (V m c main_v5)) (V m c main_arg2)

/-- Two functions on a 256 × 256 tile agree if they agree at every (p, q). -/
theorem ext_tile {α : Type} (f g : S256x256.Idx → α) (h : ∀ p q : Fin 256, f (ix2 p q) = g (ix2 p q)) : f = g :=
  funext fun y => by rw [eq_ix2 y]; exact h _ _

/-- The cell update of a point's blocks, at (p, q) of the tile, is the whole-array cell update at the row and
    column the tile position names. -/
theorem cell_point (c : Dev nD) (t : Fin cfg0.N) (p q : Fin 256) (r : Fin 4096) (cc : Fin 2048)
    (hr : r.val = win0_11.index t (0 : Fin 2) * 256 + p.val) (hc : cc.val = win0_11.index t (1 : Fin 2) * 256 + q.val) :
    tileCell (iblk m c 0 t) (iblk m c 1 t) (iblk m c 2 t) (iblk m c 3 t) (iblk m c 5 t) (iblk m c 6 t) (iblk m c 7 t) (iblk m c 9 t) p q
      = cellAt (V m c main_v1) (V m c main_arg3) (V m c main_arg5) (V m c main_arg7)
          (rowOf (V m c main_v2)) (rowOf (V m c main_v3)) (rowOf (V m c main_v4)) (V m c main_arg2) r cc :=
  tileCell_eq (V m c main_v1) (V m c main_arg3) (V m c main_arg5) (V m c main_arg7)
    (rowOf (V m c main_v2)) (rowOf (V m c main_v3)) (rowOf (V m c main_v4)) (V m c main_arg2)
    (iblk m c 0 t) (iblk m c 1 t) (iblk m c 2 t) (iblk m c 3 t) (iblk m c 5 t) (iblk m c 6 t) (iblk m c 7 t) (iblk m c 9 t) p q r cc
    (fun k => read_u m c t p k r hr) (fun k => read_wi m c t q k cc hc) (fun k => read_wf m c t q k cc hc)
    (fun k => read_wc m c t q k cc hc) (read_bi m c t q cc hc) (read_bf m c t q cc hc) (read_bc m c t q cc hc)
    (read_cell m c t p q r cc hr hc)

theorem hidden_point (c : Dev nD) (t : Fin cfg0.N) (p q : Fin 256) (r : Fin 4096) (cc : Fin 2048)
    (hr : r.val = win0_11.index t (0 : Fin 2) * 256 + p.val) (hc : cc.val = win0_11.index t (1 : Fin 2) * 256 + q.val) :
    tileHidden (iblk m c 0 t) (iblk m c 1 t) (iblk m c 2 t) (iblk m c 3 t) (iblk m c 4 t) (iblk m c 5 t) (iblk m c 6 t) (iblk m c 7 t) (iblk m c 8 t) (iblk m c 9 t) p q
      = hiddenAt (V m c main_v1) (V m c main_arg3) (V m c main_arg5) (V m c main_arg7) (V m c main_arg9)
          (rowOf (V m c main_v2)) (rowOf (V m c main_v3)) (rowOf (V m c main_v4)) (rowOf (V m c main_v5)) (V m c main_arg2) r cc :=
  tileHidden_eq (V m c main_v1) (V m c main_arg3) (V m c main_arg5) (V m c main_arg7) (V m c main_arg9)
    (rowOf (V m c main_v2)) (rowOf (V m c main_v3)) (rowOf (V m c main_v4)) (rowOf (V m c main_v5)) (V m c main_arg2)
    (iblk m c 0 t) (iblk m c 1 t) (iblk m c 2 t) (iblk m c 3 t) (iblk m c 4 t) (iblk m c 5 t) (iblk m c 6 t) (iblk m c 7 t) (iblk m c 8 t) (iblk m c 9 t) p q r cc
    (fun k => read_u m c t p k r hr) (fun k => read_wi m c t q k cc hc) (fun k => read_wf m c t q k cc hc)
    (fun k => read_wc m c t q k cc hc) (fun k => read_wo m c t q k cc hc)
    (read_bi m c t q cc hc) (read_bf m c t q cc hc) (read_bc m c t q cc hc) (read_bo m c t q cc hc)
    (read_cell m c t p q r cc hr hc)

/-- What point `t` writes back to the cell output is block `t` of the whole-array cell update. -/
theorem flushed_cell (c : Dev nD) (t : Fin cfg0.N) :
    (dats m 0 c).flushed 11 t = ((cfg0.win 11).blk t).view.read (Elt Ideal) (cellG m c) := by
  rw [flushed11]
  unfold out0_11
  rw [View.canon_unit_zero hz]
  simp only [View.ld_unit_zero (S := S256x4096) hz, View.ld_unit_zero (S := S1x256) hz, View.ld_unit_zero (S := S256x256) hz]
  refine ext_tile _ _ fun p q => ?_
  show k0_pay1 (F := Ideal) (k0_pay4 (iblk m c 0 t) (iblk m c 1 t) (iblk m c 5 t)) (k0_pay5 (iblk m c 0 t) (iblk m c 2 t) (iblk m c 6 t))
      (k0_pay6 (iblk m c 0 t) (iblk m c 3 t) (iblk m c 7 t)) (iblk m c 9 t) (ix2 p q)
    = cellG m c (((cfg0.win 11).blk t).view.emb (ix2 p q))
  refine (cell_payload (iblk m c 0 t) (iblk m c 1 t) (iblk m c 2 t) (iblk m c 3 t) (iblk m c 5 t) (iblk m c 6 t) (iblk m c 7 t)
    (iblk m c 9 t) p q).trans ?_
  unfold cellG cellNext
  exact cell_point m c t p q _ _
    (by show win0_11.index t (0 : Fin 2) * 256 + 1 * p.val = win0_11.index t (0 : Fin 2) * 256 + p.val; omega)
    (by show win0_11.index t (1 : Fin 2) * 256 + 1 * q.val = win0_11.index t (1 : Fin 2) * 256 + q.val; omega)

/-- What point `t` writes back to the hidden output is block `t` of the whole-array hidden update. -/
theorem flushed_hidden (c : Dev nD) (t : Fin cfg0.N) :
    (dats m 0 c).flushed 10 t = ((cfg0.win 10).blk t).view.read (Elt Ideal) (hiddenG m c) := by
  obtain ⟨-, -, e0, e1, -⟩ := idx_c t
  rw [flushed10]
  unfold out0_10
  rw [View.canon_unit_zero hz]
  simp only [View.ld_unit_zero (S := S256x4096) hz, View.ld_unit_zero (S := S1x256) hz, View.ld_unit_zero (S := S256x256) hz]
  refine ext_tile _ _ fun p q => ?_
  show k0_pay2 (F := Ideal) (k0_pay4 (iblk m c 0 t) (iblk m c 1 t) (iblk m c 5 t)) (k0_pay5 (iblk m c 0 t) (iblk m c 2 t) (iblk m c 6 t))
      (k0_pay6 (iblk m c 0 t) (iblk m c 3 t) (iblk m c 7 t)) (k0_pay7 (iblk m c 0 t) (iblk m c 4 t) (iblk m c 8 t)) (iblk m c 9 t) (ix2 p q)
    = hiddenG m c (((cfg0.win 10).blk t).view.emb (ix2 p q))
  refine (hidden_payload (iblk m c 0 t) (iblk m c 1 t) (iblk m c 2 t) (iblk m c 3 t) (iblk m c 4 t) (iblk m c 5 t) (iblk m c 6 t)
    (iblk m c 7 t) (iblk m c 8 t) (iblk m c 9 t) p q).trans ?_
  unfold hiddenG hiddenNext
  exact hidden_point m c t p q _ _
    (by show win0_10.index t (0 : Fin 2) * 256 + 1 * p.val = win0_11.index t (0 : Fin 2) * 256 + p.val; omega)
    (by show win0_10.index t (1 : Fin 2) * 256 + 1 * q.val = win0_11.index t (1 : Fin 2) * 256 + q.val; omega)

/-! ## The 128 blocks tile each result array -/

theorem mem_blk11 (t : Fin cfg0.N) (i : S4096x2048.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v6_1).slice (win0_11.rect t)).set ↔ _
  rw [View.set_slice_whole, Rect.mem_set_unit]
  exact Iff.rfl

theorem mem_blk10 (t : Fin cfg0.N) (i : S4096x2048.Idx) :
    i ∈ ((cfg0.win 10).blk t).view.set ↔ ∀ a : Fin 2, win0_10.index t a * S256x256.size a ≤ (i a).val ∧ (i a).val < win0_10.index t a * S256x256.size a + S256x256.size a := by
  show i ∈ ((View.whole main_v6_0).slice (win0_10.rect t)).set ↔ _
  rw [View.set_slice_whole, Rect.mem_set_unit]
  exact Iff.rfl

/-- Row r, column c lies in the block of the point whose block indices are (r / 256, c / 256). -/
theorem cover11 (i : S4096x2048.Idx) : ∃ t : Fin cfg0.N, (cfg0.win 11).flush t = true ∧ i ∈ ((cfg0.win 11).blk t).view.set := by
  have hi0 : (i 0).val < 4096 := (i 0).isLt
  have hi1 : (i 1).val < 2048 := (i 1).isLt
  obtain ⟨t, ht⟩ := idx_onto ⟨(i 0).val / 256, by omega⟩ ⟨(i 1).val / 256, by omega⟩
  have q0 : win0_11.index t (0 : Fin 2) = (i 0).val / 256 := congrFun ht 0
  have q1 : win0_11.index t (1 : Fin 2) = (i 1).val / 256 := congrFun ht 1
  refine ⟨t, flush0_11 t, ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 256 ≤ (i 1).val ∧ (i 1).val < win0_11.index t (1 : Fin 2) * 256 + 256; omega

theorem cover10 (i : S4096x2048.Idx) : ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := idx_onto ⟨(i 0).val / 256, by omega⟩ ⟨(i 1).val / 256, by omega⟩
  obtain ⟨-, -, e0, e1, -⟩ := idx_c t
  have q0 : win0_11.index t (0 : Fin 2) = (i 0).val / 256 := congrFun ht 0
  have q1 : win0_11.index t (1 : Fin 2) = (i 1).val / 256 := congrFun ht 1
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 256 ≤ (i 1).val ∧ (i 1).val < win0_10.index t (1 : Fin 2) * 256 + 256; omega

/-- So each result array ends holding the whole-array update. -/
theorem final_cell (c : Dev nD) : (dats m 0 c).arrAt 11 cfg0.N = cellG m c :=
  (dats m 0 c).arrAt_eq_of_cover 11 (cellG m c) (fun t _ => flushed_cell m c t) cover11

theorem final_hidden (c : Dev nD) : (dats m 0 c).arrAt 10 cfg0.N = hiddenG m c :=
  (dats m 0 c).arrAt_eq_of_cover 10 (hiddenG m c) (fun t _ => flushed_hidden m c t) cover10

/-! ## The run, read over the arguments -/

theorem cellG_eq (c : Dev nD) : cellG m c = cellNext (joined (m ((c : Thread nD τ).loc main_arg0)) (m ((c : Thread nD τ).loc main_arg1)))
    (m ((c : Thread nD τ).loc main_arg3)) (m ((c : Thread nD τ).loc main_arg5)) (m ((c : Thread nD τ).loc main_arg7))
    (m ((c : Thread nD τ).loc main_arg4)) (m ((c : Thread nD τ).loc main_arg6)) (m ((c : Thread nD τ).loc main_arg8))
    (m ((c : Thread nD τ).loc main_arg2)) := by
  unfold cellG
  rw [V_joined, V_main_arg3, V_main_arg5, V_main_arg7, V_main_arg2, rowOf_V2, rowOf_V3, rowOf_V4]
  rfl

theorem hiddenG_eq (c : Dev nD) : hiddenG m c = hiddenNext (joined (m ((c : Thread nD τ).loc main_arg0)) (m ((c : Thread nD τ).loc main_arg1)))
    (m ((c : Thread nD τ).loc main_arg3)) (m ((c : Thread nD τ).loc main_arg5)) (m ((c : Thread nD τ).loc main_arg7)) (m ((c : Thread nD τ).loc main_arg9))
    (m ((c : Thread nD τ).loc main_arg4)) (m ((c : Thread nD τ).loc main_arg6)) (m ((c : Thread nD τ).loc main_arg8)) (m ((c : Thread nD τ).loc main_arg10))
    (m ((c : Thread nD τ).loc main_arg2)) := by
  unfold hiddenG
  rw [V_joined, V_main_arg3, V_main_arg5, V_main_arg7, V_main_arg9, V_main_arg2, rowOf_V2, rowOf_V3, rowOf_V4, rowOf_V5]
  rfl

/-- Every weakly fair execution of the kernel's program ends with the hidden result at the hidden update and the cell
    result at the cell update of the argument arrays, the arguments unchanged. -/
theorem run : θ_run defs (onTc (τ := τ) (main (F := Ideal))) ⟨m, fun _ => 0, ρ⟩ fun r => ∀ c : Dev nD,
      r.2.mem ((c : Thread nD τ).loc main_v6_0) = hiddenNext (joined (m ((c : Thread nD τ).loc main_arg0)) (m ((c : Thread nD τ).loc main_arg1)))
          (m ((c : Thread nD τ).loc main_arg3)) (m ((c : Thread nD τ).loc main_arg5)) (m ((c : Thread nD τ).loc main_arg7)) (m ((c : Thread nD τ).loc main_arg9))
          (m ((c : Thread nD τ).loc main_arg4)) (m ((c : Thread nD τ).loc main_arg6)) (m ((c : Thread nD τ).loc main_arg8)) (m ((c : Thread nD τ).loc main_arg10))
          (m ((c : Thread nD τ).loc main_arg2))
      ∧ r.2.mem ((c : Thread nD τ).loc main_v6_1) = cellNext (joined (m ((c : Thread nD τ).loc main_arg0)) (m ((c : Thread nD τ).loc main_arg1)))
          (m ((c : Thread nD τ).loc main_arg3)) (m ((c : Thread nD τ).loc main_arg5)) (m ((c : Thread nD τ).loc main_arg7))
          (m ((c : Thread nD τ).loc main_arg4)) (m ((c : Thread nD τ).loc main_arg6)) (m ((c : Thread nD τ).loc main_arg8))
          (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final_hidden m c).trans (hiddenG_eq m c)),
      (h c).2.1.trans ((final_cell m c).trans (cellG_eq m c)), (h c).2.2⟩)
    (run_blocks m ρ)

end Cert.KernelIdeal.Blocks

end
-- ==== Proof.RefValue.lean ====
/-
  The reference computes the same two functions.

  The reference stacks the four weight matrices into one [8192, 4096] matrix, transposes it, multiplies the joined
  input by it in one product, adds the four biases laid end to end, and cuts the [4096, 8192] result into the four
  gates' columns 0…, 2048…, 4096…, 6144….  Column 2048 g + c of the product contracts row r of the joined input
  with row 2048 g + c of the stack, which is row c of gate g's weights; the bias entry there is entry c of gate g's
  bias.  So each slice, at (r, c), is that gate's pre-activation.  The sigmoids are spelt `1 / (1 + exp (-x))` with
  the literal 1.0, which denotes the real 1.
-/
import proofs.«155185_j56100862820648_2_alg».proof.Proof.Gen.ReferenceIdeal.Read
import proofs.«155185_j56100862820648_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Read Cert.LstmSpec Idealize.ShloMosaic Idealize.ShloMosaic.ValueIdx

variable (x0 x1 x2 : State) (x3 x5 x7 x9 : Weights) (x4 x6 x8 x10 : Bias)

/-! ## The stacked weights and the biases laid end to end, row by row -/

theorem wstack0 (c : Fin 2048) (k : Fin 4096) (j : Fin 8192) (hj : j.val = c.val) :
    val_main_v1 (F := Ideal) x3 x5 x7 x9 (ix2 j k) = x3 (ix2 c k) := by
  unfold val_main_v1
  refine concatenate_apply_piece (0 : Fin 2) ([⟨S2048x4096, x3⟩, ⟨S2048x4096, x5⟩, ⟨S2048x4096, x7⟩, ⟨S2048x4096, x9⟩] : List ((s : Shape) × (s.Idx → EReal))) _ (ix2 j k) 0 (by show (0 : Nat) < 4; omega) S2048x4096 x3 rfl rfl 0 rfl (ix2 c k) ?_ ?_
  · intro b hb
    match b with
    | ⟨0, _⟩ => exact absurd rfl hb
    | ⟨1, _⟩ => rfl
  · show 0 + c.val = j.val; omega

theorem wstack1 (c : Fin 2048) (k : Fin 4096) (j : Fin 8192) (hj : j.val = 2048 + c.val) :
    val_main_v1 (F := Ideal) x3 x5 x7 x9 (ix2 j k) = x5 (ix2 c k) := by
  unfold val_main_v1
  refine concatenate_apply_piece (0 : Fin 2) ([⟨S2048x4096, x3⟩, ⟨S2048x4096, x5⟩, ⟨S2048x4096, x7⟩, ⟨S2048x4096, x9⟩] : List ((s : Shape) × (s.Idx → EReal))) _ (ix2 j k) 1 (by show (1 : Nat) < 4; omega) S2048x4096 x5 rfl rfl 2048 rfl (ix2 c k) ?_ ?_
  · intro b hb
    match b with
    | ⟨0, _⟩ => exact absurd rfl hb
    | ⟨1, _⟩ => rfl
  · show 2048 + c.val = j.val; omega

theorem wstack2 (c : Fin 2048) (k : Fin 4096) (j : Fin 8192) (hj : j.val = 4096 + c.val) :
    val_main_v1 (F := Ideal) x3 x5 x7 x9 (ix2 j k) = x7 (ix2 c k) := by
  unfold val_main_v1
  refine concatenate_apply_piece (0 : Fin 2) ([⟨S2048x4096, x3⟩, ⟨S2048x4096, x5⟩, ⟨S2048x4096, x7⟩, ⟨S2048x4096, x9⟩] : List ((s : Shape) × (s.Idx → EReal))) _ (ix2 j k) 2 (by show (2 : Nat) < 4; omega) S2048x4096 x7 rfl rfl 4096 rfl (ix2 c k) ?_ ?_
  · intro b hb
    match b with
    | ⟨0, _⟩ => exact absurd rfl hb
    | ⟨1, _⟩ => rfl
  · show 4096 + c.val = j.val; omega

theorem wstack3 (c : Fin 2048) (k : Fin 4096) (j : Fin 8192) (hj : j.val = 6144 + c.val) :
    val_main_v1 (F := Ideal) x3 x5 x7 x9 (ix2 j k) = x9 (ix2 c k) := by
  unfold val_main_v1
  refine concatenate_apply_piece (0 : Fin 2) ([⟨S2048x4096, x3⟩, ⟨S2048x4096, x5⟩, ⟨S2048x4096, x7⟩, ⟨S2048x4096, x9⟩] : List ((s : Shape) × (s.Idx → EReal))) _ (ix2 j k) 3 (by show (3 : Nat) < 4; omega) S2048x4096 x9 rfl rfl 6144 rfl (ix2 c k) ?_ ?_
  · intro b hb
    match b with
    | ⟨0, _⟩ => exact absurd rfl hb
    | ⟨1, _⟩ => rfl
  · show 6144 + c.val = j.val; omega

theorem bstack0 (c : Fin 2048) (j : Fin 8192) (hj : j.val = c.val) :
    val_main_v2 (F := Ideal) x4 x6 x8 x10 (ix1 j) = x4 (ix1 c) := by
  unfold val_main_v2
  refine concatenate_apply_piece (0 : Fin 1) ([⟨S2048, x4⟩, ⟨S2048, x6⟩, ⟨S2048, x8⟩, ⟨S2048, x10⟩] : List ((s : Shape) × (s.Idx → EReal))) _ (ix1 j) 0 (by show (0 : Nat) < 4; omega) S2048 x4 rfl rfl 0 rfl (ix1 c) ?_ ?_
  · intro b hb
    match b with
    | ⟨0, _⟩ => exact absurd rfl hb
  · show 0 + c.val = j.val; omega

theorem bstack1 (c : Fin 2048) (j : Fin 8192) (hj : j.val = 2048 + c.val) :
    val_main_v2 (F := Ideal) x4 x6 x8 x10 (ix1 j) = x6 (ix1 c) := by
  unfold val_main_v2
  refine concatenate_apply_piece (0 : Fin 1) ([⟨S2048, x4⟩, ⟨S2048, x6⟩, ⟨S2048, x8⟩, ⟨S2048, x10⟩] : List ((s : Shape) × (s.Idx → EReal))) _ (ix1 j) 1 (by show (1 : Nat) < 4; omega) S2048 x6 rfl rfl 2048 rfl (ix1 c) ?_ ?_
  · intro b hb
    match b with
    | ⟨0, _⟩ => exact absurd rfl hb
  · show 2048 + c.val = j.val; omega

theorem bstack2 (c : Fin 2048) (j : Fin 8192) (hj : j.val = 4096 + c.val) :
    val_main_v2 (F := Ideal) x4 x6 x8 x10 (ix1 j) = x8 (ix1 c) := by
  unfold val_main_v2
  refine concatenate_apply_piece (0 : Fin 1) ([⟨S2048, x4⟩, ⟨S2048, x6⟩, ⟨S2048, x8⟩, ⟨S2048, x10⟩] : List ((s : Shape) × (s.Idx → EReal))) _ (ix1 j) 2 (by show (2 : Nat) < 4; omega) S2048 x8 rfl rfl 4096 rfl (ix1 c) ?_ ?_
  · intro b hb
    match b with
    | ⟨0, _⟩ => exact absurd rfl hb
  · show 4096 + c.val = j.val; omega

theorem bstack3 (c : Fin 2048) (j : Fin 8192) (hj : j.val = 6144 + c.val) :
    val_main_v2 (F := Ideal) x4 x6 x8 x10 (ix1 j) = x10 (ix1 c) := by
  unfold val_main_v2
  refine concatenate_apply_piece (0 : Fin 1) ([⟨S2048, x4⟩, ⟨S2048, x6⟩, ⟨S2048, x8⟩, ⟨S2048, x10⟩] : List ((s : Shape) × (s.Idx → EReal))) _ (ix1 j) 3 (by show (3 : Nat) < 4; omega) S2048 x10 rfl rfl 6144 rfl (ix1 c) ?_ ?_
  · intro b hb
    match b with
    | ⟨0, _⟩ => exact absurd rfl hb
  · show 6144 + c.val = j.val; omega

/-! ## The one product plus the biases, at a column of gate g -/

/-- At row r and column j of the [4096, 8192] array of all gates, where row j of the stacked weights is row c of
    `W` and entry j of the biases laid end to end is entry c of `b`: the pre-activation of that gate at (r, c). -/
theorem gates_apply (W : Weights) (b : Bias) (r : Fin 4096) (c : Fin 2048) (j : Fin 8192)
    (hW : ∀ k : Fin 4096, val_main_v1 (F := Ideal) x3 x5 x7 x9 (ix2 j k) = W (ix2 c k))
    (hb : val_main_v2 (F := Ideal) x4 x6 x8 x10 (ix1 j) = b (ix1 c)) :
    val_main_v7 (F := Ideal) x0 x1 x3 x4 x5 x6 x7 x8 x9 x10 (ix2 r j) = preact (joined x0 x1) W b r c := by
  have h4 : val_main_v4 (F := Ideal) x0 x1 x3 x5 x7 x9 (ix2 r j) = ∑ k : Fin 4096, joined x0 x1 (ix2 r k) * W (ix2 c k) := by
    rw [val_main_v4_apply]
    refine Finset.sum_congr rfl fun k _ => ?_
    rw [val_main_v3_apply]
    have e1 : lidx_main_v4 (ix2 r j) k = ix2 r k := funext fun a => Fin.ext (by match a with | ⟨0, _⟩ => rfl | ⟨1, _⟩ => rfl)
    have e2 : idx_main_v3 (ridx_main_v4 (ix2 r j) k) = ix2 j k := funext fun a => Fin.ext (by match a with | ⟨0, _⟩ => rfl | ⟨1, _⟩ => rfl)
    rw [e1, e2, hW k]
    rfl
  have h6 : val_main_v6 (F := Ideal) x4 x6 x8 x10 (ix2 r j) = b (ix1 c) := by
    rw [val_main_v6_apply, val_main_v5_apply]
    have e : idx_main_v5 (idx_main_v6 (ix2 r j)) = ix1 j := funext fun a => Fin.ext (by match a with | ⟨0, _⟩ => rfl)
    rw [e, hb]
  rw [val_main_v7_apply, h4, h6]
  rfl

/-! ## The four slices are the four gates' pre-activations -/

theorem slice_i (r : Fin 4096) (c : Fin 2048) :
    val_main_v8 (F := Ideal) x0 x1 x3 x4 x5 x6 x7 x8 x9 x10 (ix2 r c) = preact (joined x0 x1) x3 x4 r c := by
  rw [val_main_v8_apply]
  have e : idx_main_v8 (ix2 r c) = ix2 r (⟨c.val, by omega⟩ : Fin 8192) := funext fun a => Fin.ext (by match a with | ⟨0, _⟩ => rfl | ⟨1, _⟩ => rfl)
  rw [e]
  exact gates_apply x0 x1 x3 x5 x7 x9 x4 x6 x8 x10 x3 x4 r c _ (fun k => wstack0 x3 x5 x7 x9 c k _ rfl) (bstack0 x4 x6 x8 x10 c _ rfl)

theorem slice_f (r : Fin 4096) (c : Fin 2048) :
    val_main_v9 (F := Ideal) x0 x1 x3 x4 x5 x6 x7 x8 x9 x10 (ix2 r c) = preact (joined x0 x1) x5 x6 r c := by
  rw [val_main_v9_apply]
  have e : idx_main_v9 (ix2 r c) = ix2 r (⟨2048 + c.val, by omega⟩ : Fin 8192) := funext fun a => Fin.ext (by match a with | ⟨0, _⟩ => rfl | ⟨1, _⟩ => rfl)
  rw [e]
  exact gates_apply x0 x1 x3 x5 x7 x9 x4 x6 x8 x10 x5 x6 r c _ (fun k => wstack1 x3 x5 x7 x9 c k _ rfl) (bstack1 x4 x6 x8 x10 c _ rfl)

theorem slice_c (r : Fin 4096) (c : Fin 2048) :
    val_main_v10 (F := Ideal) x0 x1 x3 x4 x5 x6 x7 x8 x9 x10 (ix2 r c) = preact (joined x0 x1) x7 x8 r c := by
  rw [val_main_v10_apply]
  have e : idx_main_v10 (ix2 r c) = ix2 r (⟨4096 + c.val, by omega⟩ : Fin 8192) := funext fun a => Fin.ext (by match a with | ⟨0, _⟩ => rfl | ⟨1, _⟩ => rfl)
  rw [e]
  exact gates_apply x0 x1 x3 x5 x7 x9 x4 x6 x8 x10 x7 x8 r c _ (fun k => wstack2 x3 x5 x7 x9 c k _ rfl) (bstack2 x4 x6 x8 x10 c _ rfl)

theorem slice_o (r : Fin 4096) (c : Fin 2048) :
    val_main_v11 (F := Ideal) x0 x1 x3 x4 x5 x6 x7 x8 x9 x10 (ix2 r c) = preact (joined x0 x1) x9 x10 r c := by
  rw [val_main_v11_apply]
  have e : idx_main_v11 (ix2 r c) = ix2 r (⟨6144 + c.val, by omega⟩ : Fin 8192) := funext fun a => Fin.ext (by match a with | ⟨0, _⟩ => rfl | ⟨1, _⟩ => rfl)
  rw [e]
  exact gates_apply x0 x1 x3 x5 x7 x9 x4 x6 x8 x10 x9 x10 r c _ (fun k => wstack3 x3 x5 x7 x9 c k _ rfl) (bstack3 x4 x6 x8 x10 c _ rfl)

/-! ## The gates and the two results -/

/-- The input gate: `1.0 / (1.0 + exp (-pre))` is the sigmoid of the pre-activation. -/
theorem gate_i (r : Fin 4096) (c : Fin 2048) :
    val_main_v17 (F := Ideal) x0 x1 x3 x4 x5 x6 x7 x8 x9 x10 (ix2 r c) = Ideal.logistic (preact (joined x0 x1) x3 x4 r c) := by
  rw [val_main_v17_apply, val_main_v16_apply, val_main_cst_0_apply, val_main_v15_apply, val_main_v14_apply, val_main_cst_apply,
    val_main_v13_apply, val_main_v12_apply, slice_i]
  exact logistic_spelt _

theorem gate_f (r : Fin 4096) (c : Fin 2048) :
    val_main_v23 (F := Ideal) x0 x1 x3 x4 x5 x6 x7 x8 x9 x10 (ix2 r c) = Ideal.logistic (preact (joined x0 x1) x5 x6 r c) := by
  rw [val_main_v23_apply, val_main_v22_apply, val_main_cst_2_apply, val_main_v21_apply, val_main_v20_apply, val_main_cst_1_apply,
    val_main_v19_apply, val_main_v18_apply, slice_f]
  exact logistic_spelt _

theorem gate_c (r : Fin 4096) (c : Fin 2048) :
    val_main_v24 (F := Ideal) x0 x1 x3 x4 x5 x6 x7 x8 x9 x10 (ix2 r c) = Ideal.tanh (preact (joined x0 x1) x7 x8 r c) := by
  rw [val_main_v24_apply, slice_c]
  rfl

theorem gate_o (r : Fin 4096) (c : Fin 2048) :
    val_main_v30 (F := Ideal) x0 x1 x3 x4 x5 x6 x7 x8 x9 x10 (ix2 r c) = Ideal.logistic (preact (joined x0 x1) x9 x10 r c) := by
  rw [val_main_v30_apply, val_main_v29_apply, val_main_cst_4_apply, val_main_v28_apply, val_main_v27_apply, val_main_cst_3_apply,
    val_main_v26_apply, val_main_v25_apply, slice_o]
  exact logistic_spelt _

/-- Two state arrays agree if they agree at every (row, hidden unit). -/
theorem ext_state (f g : State) (h : ∀ (r : Fin 4096) (c : Fin 2048), f (ix2 r c) = g (ix2 r c)) : f = g :=
  funext fun y => by rw [eq_ix2 y]; exact h _ _

/-- The reference's cell result is the cell update. -/
theorem cell_eq : val_main_v33 (F := Ideal) x0 x1 x2 x3 x4 x5 x6 x7 x8 x9 x10 = cellNext (joined x0 x1) x3 x5 x7 x4 x6 x8 x2 := by
  refine ext_state _ _ fun r c => ?_
  rw [val_main_v33_apply, val_main_v31_apply, val_main_v32_apply, gate_f, gate_i, gate_c]
  rfl

/-- The reference's hidden result is the hidden update. -/
theorem hidden_eq : val_main_v35 (F := Ideal) x0 x1 x2 x3 x4 x5 x6 x7 x8 x9 x10 = hiddenNext (joined x0 x1) x3 x5 x7 x9 x4 x6 x8 x10 x2 := by
  refine ext_state _ _ fun r c => ?_
  rw [val_main_v35_apply, val_main_v34_apply, gate_o, cell_eq]
  rfl

end Cert.ReferenceIdeal.RefValue

end
-- ==== Proof.lean ====
/-
  An LSTM cell: a Pallas kernel tiled 256 × 256 over (hidden unit, batch row) against one fused matrix product.

  On the extended reals both programs compute, for batch row r and hidden unit c, the four pre-activations
  `∑ k, [x, h][r, k] · W_g[c, k] + b_g[c]` (g = input, forget, candidate, output), the new cell state
  `cell · σ(f) + σ(i) · tanh(g)` and the new hidden state `σ(o) · tanh(new cell)` (Proof/Spec.lean).
  • The kernel: each of its 128 grid points computes one 256 × 256 block of both results from the matching rows
    of the joined input and of the four weight matrices (Proof/KernelTile.lean), and the blocks tile the result
    arrays (Proof/KernelGrid.lean, Proof/KernelBlocks.lean).
  • The reference: one product of the joined input with the four weight matrices stacked and transposed, cut into
    the four gates' column ranges (Proof/RefValue.lean).
  The sums on the two sides run over the same 4096 products in the same order and the rounding of the matrix unit's
  operands is the identity on the extended reals, so no algebraic law — and hence no finiteness of the inputs — is
  needed.  The idealization rewrote no operation, so there is nothing to preserve; the three frames are the
  programs' runs with the results dropped.
-/
import proofs.«155185_j56100862820648_2_alg».proof.Defs
import proofs.«155185_j56100862820648_2_alg».proof.Proof.Gen.Kernel
import proofs.«155185_j56100862820648_2_alg».proof.Proof.Gen.Kernel.Skeleton
import proofs.«155185_j56100862820648_2_alg».proof.Proof.Gen.Kernel.Launch
import proofs.«155185_j56100862820648_2_alg».proof.Proof.Gen.Kernel.Points
import proofs.«155185_j56100862820648_2_alg».proof.Proof.Gen.Kernel.Frame
import proofs.«155185_j56100862820648_2_alg».proof.Proof.Gen.KernelIdeal
import proofs.«155185_j56100862820648_2_alg».proof.Proof.Gen.KernelIdeal.Skeleton
import proofs.«155185_j56100862820648_2_alg».proof.Proof.Gen.KernelIdeal.Launch
import proofs.«155185_j56100862820648_2_alg».proof.Proof.Gen.KernelIdeal.Points
import proofs.«155185_j56100862820648_2_alg».proof.Proof.Gen.KernelIdeal.Frame
import proofs.«155185_j56100862820648_2_alg».proof.Proof.Gen.ReferenceIdeal
import proofs.«155185_j56100862820648_2_alg».proof.Proof.Gen.Pre_finite_inputs
import proofs.«155185_j56100862820648_2_alg».proof.Proof.Gen.KernelIdeal.Value
import proofs.«155185_j56100862820648_2_alg».proof.Proof.Gen.ReferenceIdeal.Run
import proofs.«155185_j56100862820648_2_alg».proof.Proof.Gen.ReferenceIdeal.Read
import proofs.«155185_j56100862820648_2_alg».proof.Proof.KernelBlocks
import proofs.«155185_j56100862820648_2_alg».proof.Proof.RefValue
import Idealize.ShloMosaic.Adequacy
import Idealize.ShloMosaic.Init

noncomputable section

namespace Cert.Proof

open Idealize.ShloMosaic Idealize.SL.Sem Cert.LstmSpec

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the eleven arguments, both programs end with the hidden result at the hidden update
    and the cell result at the cell update of those arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.RefValue.hidden_eq, a0, a1, a2, a3, a4, a5, a6, a7, a8, a9, a10]
  · obtain ⟨a0, a1, a2, a3, a4, a5, a6, a7, a8, a9, a10⟩ := hagree c
    rw [Cert.ReferenceIdeal.Read.val_main_v33_eq, Cert.ReferenceIdeal.RefValue.cell_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
